-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S100000x2x5 : Shape := ⟨3, ![100000, 2, 5]⟩
abbrev S100000x2x2 : Shape := ⟨3, ![100000, 2, 2]⟩
abbrev S100000x1x2 : Shape := ⟨3, ![100000, 1, 2]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S100000x2x5 : S_.BroadcastsInDim S100000x2x5 (![] : Fin 0 → Fin S100000x2x5.rank)
  reducesTo_S100000x2x5_S_d0_1_2 : S100000x2x5.ReducesTo [0, 1, 2] S_
  bcast_S_S100000x2x2 : S_.BroadcastsInDim S100000x2x2 (![] : Fin 0 → Fin S100000x2x2.rank)
  reducesTo_S100000x2x2_S_d0_1_2 : S100000x2x2.ReducesTo [0, 1, 2] S_
  bcast_S_S100000x1x2 : S_.BroadcastsInDim S100000x1x2 (![] : Fin 0 → Fin S100000x1x2.rank)
  reducesTo_S100000x1x2_S_d0_1_2 : S100000x1x2.ReducesTo [0, 1, 2] S_

variable [Facts]

def fn_part1 {F : FTy → Type} [FloatOps F] (main_v13 : IVec S_ 1) (main_v16 : IVec S100000x1x2 1) : IVec S_ 1 :=
  let main_c_5 : IVec S_ 1 := constantI S_ 1 1#1
  let main_v17 : IVec S_ 1 := (fun x v => Host.reduce IntOp.andi x v reducesTo_S100000x1x2_S_d0_1_2 h_S_) main_v16 main_c_5
  let main_v18 : IVec S_ 1 := andi main_v13 main_v17
  main_v18

def fn {F : FTy → Type} [FloatOps F] (main_arg0 : FVec F S500000x128 .f32) (main_arg1 : FVec F S100000x2x5 .f32) (main_arg2 : FVec F S100000x2x2 .f32) (main_arg3 : FVec F S100000x1x2 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S100000x2x5 .f32 := Host.absf main_arg1
  let main_cst_0 : FVec F S_ .f32 := constant S_ .f32 0x7F800000#32
  let main_v5 : FVec F S100000x2x5 .f32 := broadcastInDim S100000x2x5 ![] bcast_S_S100000x2x5 main_cst_0
  let main_v6 : IVec S100000x2x5 1 := cmpf .olt main_v4 main_v5
  let main_c_1 : IVec S_ 1 := constantI S_ 1 1#1
  let main_v7 : IVec S_ 1 := (fun x v => Host.reduce IntOp.andi x v reducesTo_S100000x2x5_S_d0_1_2 h_S_) main_v6 main_c_1
  let main_v8 : IVec S_ 1 := andi main_v3 main_v7
  let main_v9 : FVec F S100000x2x2 .f32 := Host.absf main_arg2
  let main_cst_2 : FVec F S_ .f32 := constant S_ .f32 0x7F800000#32
  let main_v10 : FVec F S100000x2x2 .f32 := broadcastInDim S100000x2x2 ![] bcast_S_S100000x2x2 main_cst_2
  let main_v11 : IVec S100000x2x2 1 := cmpf .olt main_v9 main_v10
  let main_c_3 : IVec S_ 1 := constantI S_ 1 1#1
  let main_v12 : IVec S_ 1 := (fun x v => Host.reduce IntOp.andi x v reducesTo_S100000x2x2_S_d0_1_2 h_S_) main_v11 main_c_3
  let main_v13 : IVec S_ 1 := andi main_v8 main_v12
  let main_v14 : FVec F S100000x1x2 .f32 := Host.absf main_arg3
  let main_cst_4 : FVec F S_ .f32 := constant S_ .f32 0x7F800000#32
  let main_v15 : FVec F S100000x1x2 .f32 := broadcastInDim S100000x1x2 ![] bcast_S_S100000x1x2 main_cst_4
  let main_v16 : IVec S100000x1x2 1 := cmpf .olt main_v14 main_v15
  fn_part1 (F := F) main_v13 main_v16
-- ==== Kernel.lean ====
abbrev S500000x128 : Shape := ⟨2, ![500000, 128]⟩
abbrev S100000x2x5 : Shape := ⟨3, ![100000, 2, 5]⟩
abbrev S100000x2x2 : Shape := ⟨3, ![100000, 2, 2]⟩
abbrev S100000x1x2 : Shape := ⟨3, ![100000, 1, 2]⟩
abbrev S100000x5x128 : Shape := ⟨3, ![100000, 5, 128]⟩
abbrev S100000x1x128 : Shape := ⟨3, ![100000, 1, 128]⟩
abbrev S800x5x128 : Shape := ⟨3, ![800, 5, 128]⟩
abbrev S800x2x5 : Shape := ⟨3, ![800, 2, 5]⟩
abbrev S800x2x2 : Shape := ⟨3, ![800, 2, 2]⟩
abbrev S800x1x2 : Shape := ⟨3, ![800, 1, 2]⟩
abbrev S800x1x128 : Shape := ⟨3, ![800, 1, 128]⟩
abbrev S800x2x128 : Shape := ⟨3, ![800, 2, 128]⟩
abbrev S100000x128 : Shape := ⟨2, ![100000, 128]⟩

abbrev nBuf : Space → Nat
  | .hbm => 7
  | .vmem => 10
  | .smem => 0
  | _ => 0

abbrev bufTy : (tb : Table) → Fin (tcTables nBuf tb) → BufTy
  | .hbm, ⟨0, _⟩ => ⟨S500000x128, .f32⟩
  | .hbm, ⟨1, _⟩ => ⟨S100000x2x5, .f32⟩
  | .hbm, ⟨2, _⟩ => ⟨S100000x2x2, .f32⟩
  | .hbm, ⟨3, _⟩ => ⟨S100000x1x2, .f32⟩
  | .hbm, ⟨4, _⟩ => ⟨S100000x5x128, .f32⟩
  | .hbm, ⟨5, _⟩ => ⟨S100000x1x128, .f32⟩
  | .hbm, ⟨6, _⟩ => ⟨S100000x128, .f32⟩
  | .local _ .vmem, ⟨0, _⟩ => ⟨S800x5x128, .f32⟩
  | .local _ .vmem, ⟨1, _⟩ => ⟨S800x5x128, .f32⟩
  | .local _ .vmem, ⟨2, _⟩ => ⟨S800x2x5, .f32⟩
  | .local _ .vmem, ⟨3, _⟩ => ⟨S800x2x5, .f32⟩
  | .local _ .vmem, ⟨4, _⟩ => ⟨S800x2x2, .f32⟩
  | .local _ .vmem, ⟨5, _⟩ => ⟨S800x2x2, .f32⟩
  | .local _ .vmem, ⟨6, _⟩ => ⟨S800x1x2, .f32⟩
  | .local _ .vmem, ⟨7, _⟩ => ⟨S800x1x2, .f32⟩
  | .local _ .vmem, ⟨8, _⟩ => ⟨S800x1x128, .f32⟩
  | .local _ .vmem, ⟨9, _⟩ => ⟨S800x1x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![125], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S800x5x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x2x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S800x2x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S800x1x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S800x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S500000x128_S100000x5x128 : S500000x128.ShapeCasts S100000x5x128
  inb_S800x5x128_S800x5x128_0_0_0 : ∀ a, (![0, 0, 0] : Fin 3 → Nat) a + S800x5x128.size a ≤ S800x5x128.size a
  h_S800x5x128 : 0 < S800x5x128.numel
  shapeCasts_S800x5x128_S800x5x128 : S800x5x128.ShapeCasts S800x5x128
  inb_S800x2x5_S800x2x5_0_0_0 : ∀ a, (![0, 0, 0] : Fin 3 → Nat) a + S800x2x5.size a ≤ S800x2x5.size a
  h_S800x2x5 : 0 < S800x2x5.numel
  inb_S800x2x2_S800x2x2_0_0_0 : ∀ a, (![0, 0, 0] : Fin 3 → Nat) a + S800x2x2.size a ≤ S800x2x2.size a
  h_S800x2x2 : 0 < S800x2x2.numel
  inb_S800x1x2_S800x1x2_0_0_0 : ∀ a, (![0, 0, 0] : Fin 3 → Nat) a + S800x1x2.size a ≤ S800x1x2.size a
  h_S800x1x2 : 0 < S800x1x2.numel
  inb_S800x1x128_S800x1x128_0_0_0 : ∀ a, (![0, 0, 0] : Fin 3 → Nat) a + S800x1x128.size a ≤ S800x1x128.size a
  h_S800x1x128 : 0 < S800x1x128.numel
  shapeCasts_S100000x1x128_S100000x128 : S100000x1x128.ShapeCasts S100000x128
  dot_S800x2x5_S800x5x128_S800x2x128_2_1_1_2_0_0_wf : DotDims.WF S800x2x5 S800x5x128 S800x2x128 [2] [1] [1] [2] [0] [0]
  dot_S800x2x2_S800x2x128_S800x2x128_2_1_1_2_0_0_wf : DotDims.WF S800x2x2 S800x2x128 S800x2x128 [2] [1] [1] [2] [0] [0]
  dot_S800x1x2_S800x2x128_S800x1x128_2_1_1_2_0_0_wf : DotDims.WF S800x1x2 S800x2x128 S800x1x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S800x5x128.size a ≤ S100000x5x128.size a
  hwx0_0 : ∀ i : grid0.Coords, EltTy.bits .f32 = 32 ∨ (Rect.block (s := S100000x5x128) S800x5x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S800x2x5.size a ≤ S100000x2x5.size a
  hwx0_1 : ∀ i : grid0.Coords, EltTy.bits .f32 = 32 ∨ (Rect.block (s := S100000x2x5) S800x2x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S800x2x2.size a ≤ S100000x2x2.size a
  hwx0_2 : ∀ i : grid0.Coords, EltTy.bits .f32 = 32 ∨ (Rect.block (s := S100000x2x2) S800x2x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S800x1x2.size a ≤ S100000x1x2.size a
  hwx0_3 : ∀ i : grid0.Coords, EltTy.bits .f32 = 32 ∨ (Rect.block (s := S100000x1x2) S800x1x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S800x1x128.size a ≤ S100000x1x128.size a
  hwx0_4 : ∀ i : grid0.Coords, EltTy.bits .f32 = 32 ∨ (Rect.block (s := S100000x1x128) S800x1x128.size (cc0_transform_4 i) (hinb0_4 i)).WholeWords (EltTy.packing .f32)

variable [Facts₀]

def dot_S800x2x5_S800x5x128_S800x2x128_2_1_1_2_0_0 : DotDims S800x2x5 S800x5x128 S800x2x128 where
  lhsContracting := [2]
  rhsContracting := [1]
  lhsNonContracting := [1]
  rhsNonContracting := [2]
  lhsBatch := [0]
  rhsBatch := [0]
  wf := dot_S800x2x5_S800x5x128_S800x2x128_2_1_1_2_0_0_wf
def dot_S800x2x2_S800x2x128_S800x2x128_2_1_1_2_0_0 : DotDims S800x2x2 S800x2x128 S800x2x128 where
  lhsContracting := [2]
  rhsContracting := [1]
  lhsNonContracting := [1]
  rhsNonContracting := [2]
  lhsBatch := [0]
  rhsBatch := [0]
  wf := dot_S800x2x2_S800x2x128_S800x2x128_2_1_1_2_0_0_wf
def dot_S800x1x2_S800x2x128_S800x1x128_2_1_1_2_0_0 : DotDims S800x1x2 S800x2x128 S800x1x128 where
  lhsContracting := [2]
  rhsContracting := [1]
  lhsNonContracting := [1]
  rhsNonContracting := [2]
  lhsBatch := [0]
  rhsBatch := [0]
  wf := dot_S800x1x2_S800x2x128_S800x1x128_2_1_1_2_0_0_wf

abbrev win0_0 : Pipeline.Window sig grid0 :=
  Pipeline.Window.ofSpec (Memref.whole main_v0) S800x5x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S800x2x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S800x2x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S800x1x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S800x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000x128 : Shape := ⟨2, ![500000, 128]⟩
abbrev S100000x2x5 : Shape := ⟨3, ![100000, 2, 5]⟩
abbrev S100000x2x2 : Shape := ⟨3, ![100000, 2, 2]⟩
abbrev S100000x1x2 : Shape := ⟨3, ![100000, 1, 2]⟩
abbrev S100000x5x128 : Shape := ⟨3, ![100000, 5, 128]⟩
abbrev S100000x2x128 : Shape := ⟨3, ![100000, 2, 128]⟩
abbrev S100000x1x128 : Shape := ⟨3, ![100000, 1, 128]⟩
abbrev S100000x128 : Shape := ⟨2, ![100000, 128]⟩

abbrev nBuf : Space → Nat
  | .hbm => 9
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S100000x2x5, .f32⟩
  | .hbm, ⟨2, _⟩ => ⟨S100000x2x2, .f32⟩
  | .hbm, ⟨3, _⟩ => ⟨S100000x1x2, .f32⟩
  | .hbm, ⟨4, _⟩ => ⟨S100000x5x128, .f32⟩
  | .hbm, ⟨5, _⟩ => ⟨S100000x2x128, .f32⟩
  | .hbm, ⟨6, _⟩ => ⟨S100000x2x128, .f32⟩
  | .hbm, ⟨7, _⟩ => ⟨S100000x1x128, .f32⟩
  | .hbm, ⟨8, _⟩ => ⟨S100000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  shapeCasts_S500000x128_S100000x5x128 : S500000x128.ShapeCasts S100000x5x128
  shapeCasts_S100000x1x128_S100000x128 : S100000x1x128.ShapeCasts S100000x128
  dot_S100000x2x5_S100000x5x128_S100000x2x128_2_1_1_2_0_0_wf : DotDims.WF S100000x2x5 S100000x5x128 S100000x2x128 [2] [1] [1] [2] [0] [0]
  dot_S100000x2x2_S100000x2x128_S100000x2x128_2_1_1_2_0_0_wf : DotDims.WF S100000x2x2 S100000x2x128 S100000x2x128 [2] [1] [1] [2] [0] [0]
  dot_S100000x1x2_S100000x2x128_S100000x1x128_2_1_1_2_0_0_wf : DotDims.WF S100000x1x2 S100000x2x128 S100000x1x128 [2] [1] [1] [2] [0] [0]

variable [Facts₀]

def dot_S100000x2x5_S100000x5x128_S100000x2x128_2_1_1_2_0_0 : DotDims S100000x2x5 S100000x5x128 S100000x2x128 where
  lhsContracting := [2]
  rhsContracting := [1]
  lhsNonContracting := [1]
  rhsNonContracting := [2]
  lhsBatch := [0]
  rhsBatch := [0]
  wf := dot_S100000x2x5_S100000x5x128_S100000x2x128_2_1_1_2_0_0_wf
def dot_S100000x2x2_S100000x2x128_S100000x2x128_2_1_1_2_0_0 : DotDims S100000x2x2 S100000x2x128 S100000x2x128 where
  lhsContracting := [2]
  rhsContracting := [1]
  lhsNonContracting := [1]
  rhsNonContracting := [2]
  lhsBatch := [0]
  rhsBatch := [0]
  wf := dot_S100000x2x2_S100000x2x128_S100000x2x128_2_1_1_2_0_0_wf
def dot_S100000x1x2_S100000x2x128_S100000x1x128_2_1_1_2_0_0 : DotDims S100000x1x2 S100000x2x128 S100000x1x128 where
  lhsContracting := [2]
  rhsContracting := [1]
  lhsNonContracting := [1]
  rhsNonContracting := [2]
  lhsBatch := [0]
  rhsBatch := [0]
  wf := dot_S100000x1x2_S100000x2x128_S100000x1x128_2_1_1_2_0_0_wf

class Facts : Prop extends Facts₀ where

variable [Facts]
-- ==== Proof.LibBatchDot.lean ====
/-
  A batched matrix product read at an index, at the extended reals.

  Operands of shapes [B, M, K] and [B, K, N], result [B, M, N]: axis 0 of both operands is the batch
  axis, axis 2 of the left operand is contracted against axis 1 of the right. At the ideal values the
  product at (b, p, c) is the finite sum over k of left (b, p, k) times right (b, k, c): the batch
  coordinate is shared, nothing crosses between batches. This holds of the matrix unit's product into a
  zero accumulator and of the host's dot_general alike, for operands of any float formats and any sizes;
  it is a reindexing of the contraction (a one-axis index is its coordinate) and uses no law of
  arithmetic beyond 0 + s = s.

  What it needs of the dimension numbers is collected in `BatchDot.Facts`: the contraction has one axis,
  of extent K, and the operand indices at a result index j and a contraction index q have the
  coordinates (j 0, j 1, q) and (j 0, q, j 2). For a record over literal shapes each of the six
  coordinate facts is a definitional unfolding decided on the record's lists.
-/
import Idealize.ShloMosaic.PureOps.Ideal.Laws
import Idealize.ShloMosaic.Lib.ValueIdx

noncomputable section

namespace BatchDot

open Idealize.ShloMosaic Idealize.ShloMosaic.ValueIdx

/-- The dimension numbers "batch axis 0 with 0, left axis 2 against right axis 1", said of the
    operand indices: at result index `j` and contraction index `q` the left operand is read at
    `(j 0, j 1, q)` and the right at `(j 0, q, j 2)`; the contraction is one axis of extent `K`. -/
structure Facts {B M K N : Nat} (d : DotDims ⟨3, ![B, M, K]⟩ ⟨3, ![B, K, N]⟩ ⟨3, ![B, M, N]⟩) : Prop where
  rank : d.contr.rank = 1
  size : d.contr.size ⟨0, by omega⟩ = K
  l0 : ∀ (j : (⟨3, ![B, M, N]⟩ : Shape).Idx) (q : d.contr.Idx), (d.lhsIdx j q 0).val = (j 0).val
  l1 : ∀ (j : (⟨3, ![B, M, N]⟩ : Shape).Idx) (q : d.contr.Idx), (d.lhsIdx j q 1).val = (j 1).val
  l2 : ∀ (j : (⟨3, ![B, M, N]⟩ : Shape).Idx) (q : d.contr.Idx), (d.lhsIdx j q 2).val = (q ⟨0, by omega⟩).val
  r0 : ∀ (j : (⟨3, ![B, M, N]⟩ : Shape).Idx) (q : d.contr.Idx), (d.rhsIdx j q 0).val = (j 0).val
  r1 : ∀ (j : (⟨3, ![B, M, N]⟩ : Shape).Idx) (q : d.contr.Idx), (d.rhsIdx j q 1).val = (q ⟨0, by omega⟩).val
  r2 : ∀ (j : (⟨3, ![B, M, N]⟩ : Shape).Idx) (q : d.contr.Idx), (d.rhsIdx j q 2).val = (j 2).val

variable {B M K N : Nat} {d : DotDims ⟨3, ![B, M, K]⟩ ⟨3, ![B, K, N]⟩ ⟨3, ![B, M, N]⟩} {φ₁ φ₂ : FTy}

/-- The contraction's sum, reindexed by the contracted coordinate: at (b, p, c) the products are
    left (b, p, k) · right (b, k, c), k over the contracted extent. -/
theorem sum_contr (h : Facts d) (l : FVec Ideal ⟨3, ![B, M, K]⟩ φ₁) (r : FVec Ideal ⟨3, ![B, K, N]⟩ φ₂)
    (b : Fin B) (p : Fin M) (c : Fin N) :
    ∑ q : d.contr.Idx, l (d.lhsIdx (ix3 b p c) q) * r (d.rhsIdx (ix3 b p c) q)
      = ∑ k : Fin K, l (ix3 b p k) * r (ix3 b k c) := by
  rw [← Equiv.sum_comp (contrEquiv1 d K h.rank h.size).symm]
  refine Finset.sum_congr rfl fun k _ => ?_
  have hk := contrEquiv1_symm_val d K h.rank h.size k
  have el : d.lhsIdx (ix3 b p c) ((contrEquiv1 d K h.rank h.size).symm k) = ix3 b p k :=
    funext fun a => Fin.ext (by
      match a with
      | ⟨0, _⟩ => exact h.l0 _ _
      | ⟨1, _⟩ => exact h.l1 _ _
      | ⟨2, _⟩ => exact (h.l2 _ _).trans hk)
  have er : d.rhsIdx (ix3 b p c) ((contrEquiv1 d K h.rank h.size).symm k) = ix3 b k c :=
    funext fun a => Fin.ext (by
      match a with
      | ⟨0, _⟩ => exact h.r0 _ _
      | ⟨1, _⟩ => exact (h.r1 _ _).trans hk
      | ⟨2, _⟩ => exact h.r2 _ _)
  rw [el, er]

/-- The matrix unit's batched product into a zero accumulator, at (b, p, c): the sum over k of
    left (b, p, k) · right (b, k, c). -/
theorem matmul_zero_ix3 (h : Facts d) (prec : Option ContractPrecision)
    (l : FVec Ideal ⟨3, ![B, M, K]⟩ φ₁) (r : FVec Ideal ⟨3, ![B, K, N]⟩ φ₂) (b : Fin B) (p : Fin M) (c : Fin N) :
    matmul d prec l r (constant (F := Ideal) ⟨3, ![B, M, N]⟩ .f32 0x00000000#32) (ix3 b p c)
      = ∑ k : Fin K, l (ix3 b p k) * r (ix3 b k c) :=
  (Ideal.matmul_constant_zero_apply d prec l r (ix3 b p c)).trans (sum_contr h l r b p c)

/-- The host's batched dot_general, at (b, p, c): the same sum. -/
theorem dotGeneral_ix3 (h : Facts d) (prec : Option ContractPrecision)
    (l : FVec Ideal ⟨3, ![B, M, K]⟩ φ₁) (r : FVec Ideal ⟨3, ![B, K, N]⟩ φ₂) (b : Fin B) (p : Fin M) (c : Fin N) :
    Host.dotGeneral d prec l r (ix3 b p c) = ∑ k : Fin K, l (ix3 b p k) * r (ix3 b k c) :=
  (Ideal.dotGeneral_apply d prec .single l r (ix3 b p c)).trans (sum_contr h l r b p c)

end BatchDot

end
-- ==== Proof.KernelDots.lean ====
/-
  The three matrix products of the kernel body are batched over the 800 nets of a block: each contracts
  axis 2 of the weights with axis 1 of the values, net by net. Here the dimension numbers of the three
  printed records are read as coordinates — the left operand at (j 0, j 1, q), the right at (j 0, q, j 2) —
  which is all the index-by-index reading of a batched product asks of them.
-/
import proofs.«167691_j2241972928734_1_alg».proof.Proof.Gen.KernelIdeal
import proofs.«167691_j2241972928734_1_alg».proof.Proof.LibBatchDot

noncomputable section

namespace Cert.KernelIdeal.Dots

open Cert.KernelIdeal Cert.KernelIdeal.Gen Idealize.ShloMosaic

/-- The dimension numbers of the first layer: [800,2,5] weights against the [800,5,128] inputs. -/
theorem layer0 : BatchDot.Facts (B := 800) (M := 2) (K := 5) (N := 128) dot_S800x2x5_S800x5x128_S800x2x128_2_1_1_2_0_0 where
  rank := rfl
  size := rfl
  l0 := fun j q => by
    unfold DotDims.lhsIdx
    rw [dif_pos (show (0 : Fin S800x2x5.rank) ∈ dot_S800x2x5_S800x5x128_S800x2x128_2_1_1_2_0_0.lhsBatch by decide)]
    rfl
  l1 := fun j q => by
    unfold DotDims.lhsIdx
    rw [dif_neg (show ¬(1 : Fin S800x2x5.rank) ∈ dot_S800x2x5_S800x5x128_S800x2x128_2_1_1_2_0_0.lhsBatch by decide),
      dif_pos (show (1 : Fin S800x2x5.rank) ∈ dot_S800x2x5_S800x5x128_S800x2x128_2_1_1_2_0_0.lhsNonContracting by decide)]
    rfl
  l2 := fun j q => dot_S800x2x5_S800x5x128_S800x2x128_2_1_1_2_0_0.lhsIdx_val_of_single rfl j q
  r0 := fun j q => by
    unfold DotDims.rhsIdx
    rw [dif_pos (show (0 : Fin S800x5x128.rank) ∈ dot_S800x2x5_S800x5x128_S800x2x128_2_1_1_2_0_0.rhsBatch by decide)]
    rfl
  r1 := fun j q => dot_S800x2x5_S800x5x128_S800x2x128_2_1_1_2_0_0.rhsIdx_val_of_single rfl j q
  r2 := fun j q => by
    unfold DotDims.rhsIdx
    rw [dif_neg (show ¬(2 : Fin S800x5x128.rank) ∈ dot_S800x2x5_S800x5x128_S800x2x128_2_1_1_2_0_0.rhsBatch by decide),
      dif_pos (show (2 : Fin S800x5x128.rank) ∈ dot_S800x2x5_S800x5x128_S800x2x128_2_1_1_2_0_0.rhsNonContracting by decide)]
    rfl

/-- The dimension numbers of the second layer: [800,2,2] weights against the [800,2,128] hidden values. -/
theorem layer1 : BatchDot.Facts (B := 800) (M := 2) (K := 2) (N := 128) dot_S800x2x2_S800x2x128_S800x2x128_2_1_1_2_0_0 where
  rank := rfl
  size := rfl
  l0 := fun j q => by
    unfold DotDims.lhsIdx
    rw [dif_pos (show (0 : Fin S800x2x2.rank) ∈ dot_S800x2x2_S800x2x128_S800x2x128_2_1_1_2_0_0.lhsBatch by decide)]
    rfl
  l1 := fun j q => by
    unfold DotDims.lhsIdx
    rw [dif_neg (show ¬(1 : Fin S800x2x2.rank) ∈ dot_S800x2x2_S800x2x128_S800x2x128_2_1_1_2_0_0.lhsBatch by decide),
      dif_pos (show (1 : Fin S800x2x2.rank) ∈ dot_S800x2x2_S800x2x128_S800x2x128_2_1_1_2_0_0.lhsNonContracting by decide)]
    rfl
  l2 := fun j q => dot_S800x2x2_S800x2x128_S800x2x128_2_1_1_2_0_0.lhsIdx_val_of_single rfl j q
  r0 := fun j q => by
    unfold DotDims.rhsIdx
    rw [dif_pos (show (0 : Fin S800x2x128.rank) ∈ dot_S800x2x2_S800x2x128_S800x2x128_2_1_1_2_0_0.rhsBatch by decide)]
    rfl
  r1 := fun j q => dot_S800x2x2_S800x2x128_S800x2x128_2_1_1_2_0_0.rhsIdx_val_of_single rfl j q
  r2 := fun j q => by
    unfold DotDims.rhsIdx
    rw [dif_neg (show ¬(2 : Fin S800x2x128.rank) ∈ dot_S800x2x2_S800x2x128_S800x2x128_2_1_1_2_0_0.rhsBatch by decide),
      dif_pos (show (2 : Fin S800x2x128.rank) ∈ dot_S800x2x2_S800x2x128_S800x2x128_2_1_1_2_0_0.rhsNonContracting by decide)]
    rfl

/-- The dimension numbers of the third layer: [800,1,2] weights against the [800,2,128] hidden values. -/
theorem layer2 : BatchDot.Facts (B := 800) (M := 1) (K := 2) (N := 128) dot_S800x1x2_S800x2x128_S800x1x128_2_1_1_2_0_0 where
  rank := rfl
  size := rfl
  l0 := fun j q => by
    unfold DotDims.lhsIdx
    rw [dif_pos (show (0 : Fin S800x1x2.rank) ∈ dot_S800x1x2_S800x2x128_S800x1x128_2_1_1_2_0_0.lhsBatch by decide)]
    rfl
  l1 := fun j q => by
    unfold DotDims.lhsIdx
    rw [dif_neg (show ¬(1 : Fin S800x1x2.rank) ∈ dot_S800x1x2_S800x2x128_S800x1x128_2_1_1_2_0_0.lhsBatch by decide),
      dif_pos (show (1 : Fin S800x1x2.rank) ∈ dot_S800x1x2_S800x2x128_S800x1x128_2_1_1_2_0_0.lhsNonContracting by decide)]
    rfl
  l2 := fun j q => dot_S800x1x2_S800x2x128_S800x1x128_2_1_1_2_0_0.lhsIdx_val_of_single rfl j q
  r0 := fun j q => by
    unfold DotDims.rhsIdx
    rw [dif_pos (show (0 : Fin S800x2x128.rank) ∈ dot_S800x1x2_S800x2x128_S800x1x128_2_1_1_2_0_0.rhsBatch by decide)]
    rfl
  r1 := fun j q => dot_S800x1x2_S800x2x128_S800x1x128_2_1_1_2_0_0.rhsIdx_val_of_single rfl j q
  r2 := fun j q => by
    unfold DotDims.rhsIdx
    rw [dif_neg (show ¬(2 : Fin S800x2x128.rank) ∈ dot_S800x1x2_S800x2x128_S800x1x128_2_1_1_2_0_0.rhsBatch by decide),
      dif_pos (show (2 : Fin S800x2x128.rank) ∈ dot_S800x1x2_S800x2x128_S800x1x128_2_1_1_2_0_0.rhsNonContracting by decide)]
    rfl

end Cert.KernelIdeal.Dots

end
-- ==== Proof.NetSpec.lean ====
/-
  The function both programs compute. There are 100000 independent small nets; net n maps its five input
  rows x(n, ·, c) — a column c of 128 — through three linear layers with no bias and no nonlinearity:

      out(n, o, c) = Σ_h w2(n, o, h) · Σ_g w1(n, h, g) · Σ_i w0(n, g, i) · x(n, i, c)

  with i over 5 inputs, g and h over 2 hidden units, o the single output. The sums are nested exactly as
  written (each layer is summed before the next multiplies it), so no distributive law is ever used and
  the formula is meaningful on all extended reals. Net n reads only the rows of x, w0, w1, w2 with leading
  coordinate n: that is why the nets can be computed in blocks of 800 and the blocks put side by side.
-/
import Idealize.ShloMosaic.PureOps.Ideal
import Idealize.ShloMosaic.Lib.ValueIdx

noncomputable section

namespace TinyNets

open Idealize.ShloMosaic Idealize.ShloMosaic.ValueIdx

/-- Net `n`'s output `o` at column `c`, for a stack of `B` nets: the three nested layer sums. -/
def netOut {B : Nat} (x : (⟨3, ![B, 5, 128]⟩ : Shape).Idx → EReal) (w0 : (⟨3, ![B, 2, 5]⟩ : Shape).Idx → EReal)
    (w1 : (⟨3, ![B, 2, 2]⟩ : Shape).Idx → EReal) (w2 : (⟨3, ![B, 1, 2]⟩ : Shape).Idx → EReal)
    (n : Fin B) (o : Fin 1) (c : Fin 128) : EReal :=
  ∑ h : Fin 2, w2 (ix3 n o h) * ∑ g : Fin 2, w1 (ix3 n h g) * ∑ i : Fin 5, w0 (ix3 n g i) * x (ix3 n i c)

/-- All the nets' outputs as one [B, 1, 128] array. -/
def netArr {B : Nat} (x : (⟨3, ![B, 5, 128]⟩ : Shape).Idx → EReal) (w0 : (⟨3, ![B, 2, 5]⟩ : Shape).Idx → EReal)
    (w1 : (⟨3, ![B, 2, 2]⟩ : Shape).Idx → EReal) (w2 : (⟨3, ![B, 1, 2]⟩ : Shape).Idx → EReal) :
    (⟨3, ![B, 1, 128]⟩ : Shape).Idx → EReal :=
  fun j => netOut x w0 w1 w2 (j 0) (j 1) (j 2)

theorem netArr_ix3 {B : Nat} (x : (⟨3, ![B, 5, 128]⟩ : Shape).Idx → EReal) (w0 : (⟨3, ![B, 2, 5]⟩ : Shape).Idx → EReal)
    (w1 : (⟨3, ![B, 2, 2]⟩ : Shape).Idx → EReal) (w2 : (⟨3, ![B, 1, 2]⟩ : Shape).Idx → EReal)
    (n : Fin B) (o : Fin 1) (c : Fin 128) : netArr x w0 w1 w2 (ix3 n o c) = netOut x w0 w1 w2 n o c := rfl

/-- `x` holds the 800 leading rows number `tb · 800 …` of `X`: row `p` of `x` is row `tb · 800 + p` of `X`,
    the two trailing coordinates unchanged. (What a block of 800 nets is, for each of the four arrays.) -/
def IsBlock {M N : Nat} (tb : Nat) (x : (⟨3, ![800, M, N]⟩ : Shape).Idx → EReal)
    (X : (⟨3, ![100000, M, N]⟩ : Shape).Idx → EReal) : Prop :=
  ∀ (p : Fin 800) (a : Fin M) (b : Fin N) (n : Fin 100000), n.val = tb * 800 + p.val → x (ix3 p a b) = X (ix3 n a b)

/-- A net's output depends only on its own rows: computed from blocks of the four arrays, net `p` of the
    block is net `tb · 800 + p` of the whole. -/
theorem netOut_block {tb : Nat} {x : (⟨3, ![800, 5, 128]⟩ : Shape).Idx → EReal} {w0 : (⟨3, ![800, 2, 5]⟩ : Shape).Idx → EReal}
    {w1 : (⟨3, ![800, 2, 2]⟩ : Shape).Idx → EReal} {w2 : (⟨3, ![800, 1, 2]⟩ : Shape).Idx → EReal}
    {X : (⟨3, ![100000, 5, 128]⟩ : Shape).Idx → EReal} {W0 : (⟨3, ![100000, 2, 5]⟩ : Shape).Idx → EReal}
    {W1 : (⟨3, ![100000, 2, 2]⟩ : Shape).Idx → EReal} {W2 : (⟨3, ![100000, 1, 2]⟩ : Shape).Idx → EReal}
    (hx : IsBlock tb x X) (h0 : IsBlock tb w0 W0) (h1 : IsBlock tb w1 W1) (h2 : IsBlock tb w2 W2)
    (p : Fin 800) (n : Fin 100000) (hn : n.val = tb * 800 + p.val) (o : Fin 1) (c : Fin 128) :
    netOut x w0 w1 w2 p o c = netOut X W0 W1 W2 n o c := by
  unfold netOut
  refine Finset.sum_congr rfl fun h _ => ?_
  rw [h2 p o h n hn]
  refine congrArg _ (Finset.sum_congr rfl fun g _ => ?_)
  rw [h1 p h g n hn]
  refine congrArg _ (Finset.sum_congr rfl fun i _ => ?_)
  rw [h0 p g i n hn, hx p i c n hn]

end TinyNets

end
-- ==== Proof.KernelNet.lean ====
/-
  What the kernel body stores, read at an index. The body loads a block of 800 nets — their inputs
  [800, 5, 128] and weights [800, 2, 5], [800, 2, 2], [800, 1, 2] — and stores the third of three batched
  matrix products, each accumulated into zeros. Read at (p, o, c) that is the nets' formula `netOut` for
  net p of the block: the same nesting of the three sums as the reference's, 0 + s = s being the only
  arithmetic used. Since net p of block tb reads only rows tb · 800 + p of the four arrays, the stored
  value at (p, o, c) is the whole-array function at (tb · 800 + p, o, c).
-/
import proofs.«167691_j2241972928734_1_alg».proof.Proof.Gen.KernelIdeal.Skeleton
import proofs.«167691_j2241972928734_1_alg».proof.Proof.KernelDots
import proofs.«167691_j2241972928734_1_alg».proof.Proof.NetSpec
import Idealize.ShloMosaic.Lib.Pipeline.Value

noncomputable section

namespace Cert.KernelIdeal.Net

open Cert.KernelIdeal Cert.KernelIdeal.Gen
open Idealize.ShloMosaic Idealize.ShloMosaic.ValueIdx TinyNets

/-- The stored value at (p, o, c) is net p's output at column c, computed from the loaded blocks. -/
theorem payload_net (x0 : Vec Ideal S800x5x128 .f32) (x1 : Vec Ideal S800x2x5 .f32) (x2 : Vec Ideal S800x2x2 .f32)
    (x3 : Vec Ideal S800x1x2 .f32) (p : Fin 800) (o : Fin 1) (c : Fin 128) :
    k0_pay1 (F := Ideal) x0 x1 x2 x3 (ix3 p o c) = netOut x0 x1 x2 x3 p o c := by
  unfold k0_pay1 netOut
  rw [BatchDot.matmul_zero_ix3 Dots.layer2]
  refine Finset.sum_congr rfl fun h _ => congrArg _ ?_
  rw [BatchDot.matmul_zero_ix3 Dots.layer1]
  refine Finset.sum_congr rfl fun g _ => congrArg _ ?_
  rw [BatchDot.matmul_zero_ix3 Dots.layer0]
  refine Finset.sum_congr rfl fun i _ => congrArg _ ?_
  rw [shapeCast_self]

/-- From blocks to the whole: if the four loaded values are block `tb` of four arrays, the stored value at
    `y` is the nets' array of those four at the index `i` with leading coordinate `tb · 800 + y 0` and the
    same trailing coordinates. -/
theorem block_net {tb : Nat} (x0 : Vec Ideal S800x5x128 .f32) (x1 : Vec Ideal S800x2x5 .f32) (x2 : Vec Ideal S800x2x2 .f32)
    (x3 : Vec Ideal S800x1x2 .f32)
    (X : (⟨3, ![100000, 5, 128]⟩ : Shape).Idx → EReal) (W0 : (⟨3, ![100000, 2, 5]⟩ : Shape).Idx → EReal)
    (W1 : (⟨3, ![100000, 2, 2]⟩ : Shape).Idx → EReal) (W2 : (⟨3, ![100000, 1, 2]⟩ : Shape).Idx → EReal)
    (hx : IsBlock tb x0 X) (h0 : IsBlock tb x1 W0) (h1 : IsBlock tb x2 W1) (h2 : IsBlock tb x3 W2)
    (y : S800x1x128.Idx) (i : (⟨3, ![100000, 1, 128]⟩ : Shape).Idx)
    (hi0 : (i 0).val = tb * 800 + (y 0).val) (hi1 : (i 1).val = (y 1).val) (hi2 : (i 2).val = (y 2).val) :
    k0_pay1 (F := Ideal) x0 x1 x2 x3 y = netArr X W0 W1 W2 i := by
  obtain ⟨p, o, c, rfl⟩ : ∃ (p : Fin 800) (o : Fin 1) (c : Fin 128), y = ix3 p o c := ⟨y 0, y 1, y 2, eq_ix3 y⟩
  obtain ⟨n, o', c', rfl⟩ : ∃ (n : Fin 100000) (o' : Fin 1) (c' : Fin 128), i = ix3 n o' c' := ⟨i 0, i 1, i 2, eq_ix3 i⟩
  obtain rfl : o' = o := Fin.ext hi1
  obtain rfl : c' = c := Fin.ext hi2
  rw [payload_net, netArr_ix3]
  exact netOut_block hx h0 h1 h2 p n hi0 o' c'

end Cert.KernelIdeal.Net

end
-- ==== Proof.KernelArray.lean ====
/-
  From the kernel's blocks to its result array.

  The region runs 125 points; point t stages rows 800·t … 800·t + 799 of each of the four operand arrays
  (all five index maps are t ↦ (t, 0, 0)) and writes back the same rows of the [100000, 1, 128] output. By
  the body's reading, what point t writes back is block t of ONE whole-array function — the nets' outputs
  `netArr` of the four arrays as the region finds them — and the 125 blocks tile the output (row r is in
  block r / 800), so after the region the output array is that function. Around the region the host only
  recasts: the input [500000, 128] → [100000, 5, 128] before, the output [100000, 1, 128] → [100000, 128] after.
-/
import proofs.«167691_j2241972928734_1_alg».proof.Proof.Gen.KernelIdeal.Frame
import proofs.«167691_j2241972928734_1_alg».proof.Proof.KernelNet
import Idealize.ShloMosaic.Lib.Pipeline.Value
import Idealize.ShloMosaic.Lib.StableHlo.Run

set_option maxRecDepth 16384

noncomputable section

namespace Cert.KernelIdeal.Nets

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo TinyNets

variable (m : (ℓ : Loc nD τ sig) → Buf (Elt Ideal) ℓ) (ρ : Dev nD → PrngReg)

theorem offsets_zero : (![0, 0, 0] : Fin 3 → Nat) = fun _ => 0 := funext fun a => by fin_cases a <;> rfl

/-- The five printed index maps, decided over the 125 points: every window is at block (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-! ## Each staged block is block t of its array -/

/-- The recast inputs' block at point t is rows 800·t … of the [100000, 5, 128] array. -/
theorem blk_x (c : Dev nD) (t : Fin cfg0.N) : IsBlock t.val (iblk m c 0 t) (V m c main_v0) := by
  intro p a b n hn
  obtain ⟨⟨e0, e1, e2⟩, -⟩ := idx_facts t
  show V m c main_v0 (((cfg0.win 0).blk t).view.emb (ix3 p a b)) = V m c main_v0 (ix3 n a b)
  refine congrArg _ (funext fun d => Fin.ext ?_)
  match d with
  | ⟨0, _⟩ => show win0_0.index t (0 : Fin 3) * 800 + 1 * p.val = n.val; omega
  | ⟨1, _⟩ => show win0_0.index t (1 : Fin 3) * 5 + 1 * a.val = a.val; omega
  | ⟨2, _⟩ => show win0_0.index t (2 : Fin 3) * 128 + 1 * b.val = b.val; omega

/-- The first layer's weights' block at point t. -/
theorem blk_w0 (c : Dev nD) (t : Fin cfg0.N) : IsBlock t.val (iblk m c 1 t) (V m c main_arg1) := by
  intro p a b n hn
  obtain ⟨-, ⟨e0, e1, e2⟩, -⟩ := idx_facts t
  show V m c main_arg1 (((cfg0.win 1).blk t).view.emb (ix3 p a b)) = V m c main_arg1 (ix3 n a b)
  refine congrArg _ (funext fun d => Fin.ext ?_)
  match d with
  | ⟨0, _⟩ => show win0_1.index t (0 : Fin 3) * 800 + 1 * p.val = n.val; omega
  | ⟨1, _⟩ => show win0_1.index t (1 : Fin 3) * 2 + 1 * a.val = a.val; omega
  | ⟨2, _⟩ => show win0_1.index t (2 : Fin 3) * 5 + 1 * b.val = b.val; omega

/-- The second layer's weights' block at point t. -/
theorem blk_w1 (c : Dev nD) (t : Fin cfg0.N) : IsBlock t.val (iblk m c 2 t) (V m c main_arg2) := by
  intro p a b n hn
  obtain ⟨-, -, ⟨e0, e1, e2⟩, -⟩ := idx_facts t
  show V m c main_arg2 (((cfg0.win 2).blk t).view.emb (ix3 p a b)) = V m c main_arg2 (ix3 n a b)
  refine congrArg _ (funext fun d => Fin.ext ?_)
  match d with
  | ⟨0, _⟩ => show win0_2.index t (0 : Fin 3) * 800 + 1 * p.val = n.val; omega
  | ⟨1, _⟩ => show win0_2.index t (1 : Fin 3) * 2 + 1 * a.val = a.val; omega
  | ⟨2, _⟩ => show win0_2.index t (2 : Fin 3) * 2 + 1 * b.val = b.val; omega

/-- The third layer's weights' block at point t. -/
theorem blk_w2 (c : Dev nD) (t : Fin cfg0.N) : IsBlock t.val (iblk m c 3 t) (V m c main_arg3) := by
  intro p a b n hn
  obtain ⟨-, -, -, ⟨e0, e1, e2⟩, -⟩ := idx_facts t
  show V m c main_arg3 (((cfg0.win 3).blk t).view.emb (ix3 p a b)) = V m c main_arg3 (ix3 n a b)
  refine congrArg _ (funext fun d => Fin.ext ?_)
  match d with
  | ⟨0, _⟩ => show win0_3.index t (0 : Fin 3) * 800 + 1 * p.val = n.val; omega
  | ⟨1, _⟩ => show win0_3.index t (1 : Fin 3) * 1 + 1 * a.val = a.val; omega
  | ⟨2, _⟩ => show win0_3.index t (2 : Fin 3) * 2 + 1 * b.val = b.val; omega

/-! ## What a point writes back, and the array after the region -/

/-- The nets' outputs of the four arrays as the region finds them. -/
abbrev regionNets (c : Dev nD) : S100000x1x128.Idx → EReal :=
  netArr (V m c main_v0) (V m c main_arg1) (V m c main_arg2) (V m c main_arg3)

/-- What point t writes back is block t of the nets' outputs. -/
theorem flushed_eq (c : Dev nD) (t : Fin cfg0.N) :
    (dats m 0 c).flushed 4 t = ((cfg0.win 4).blk t).view.read (Elt Ideal) (regionNets m c) := by
  show (cfg0.win 4).cut (grid0.coords t) ((dats m 0 c).after 4 t) = _
  rw [after0_4]
  unfold out0_4
  rw [View.canon_unit_zero offsets_zero]
  simp only [View.ld_unit_zero (S := S800x5x128) offsets_zero, View.ld_unit_zero (S := S800x2x5) offsets_zero,
    View.ld_unit_zero (S := S800x2x2) offsets_zero, View.ld_unit_zero (S := S800x1x2) offsets_zero]
  obtain ⟨-, -, -, -, ⟨e0, e1, e2⟩⟩ := idx_facts t
  funext y
  show k0_pay1 (F := Ideal) (iblk m c 0 t) (iblk m c 1 t) (iblk m c 2 t) (iblk m c 3 t) y
    = regionNets m c (((cfg0.win 4).blk t).view.emb y)
  refine Net.block_net (tb := t.val) (iblk m c 0 t) (iblk m c 1 t) (iblk m c 2 t) (iblk m c 3 t)
    (V m c main_v0) (V m c main_arg1) (V m c main_arg2) (V m c main_arg3)
    (blk_x m c t) (blk_w0 m c t) (blk_w1 m c t) (blk_w2 m c t) y (((cfg0.win 4).blk t).view.emb y) ?_ ?_ ?_
  · show win0_4.index t (0 : Fin 3) * 800 + 1 * (y 0).val = t.val * 800 + (y 0).val; omega
  · show win0_4.index t (1 : Fin 3) * 1 + 1 * (y 1).val = (y 1).val; omega
  · show win0_4.index t (2 : Fin 3) * 128 + 1 * (y 2).val = (y 2).val; omega

/-- An index of the output is in point t's block iff each coordinate is in the block's range on its axis. -/
theorem mem_blk (t : Fin cfg0.N) (i : S100000x1x128.Idx) :
    i ∈ ((cfg0.win 4).blk t).view.set ↔ ∀ a : Fin 3, win0_4.index t a * S800x1x128.size a ≤ (i a).val
      ∧ (i a).val < win0_4.index t a * S800x1x128.size a + S800x1x128.size a := by
  show i ∈ ((View.whole main_v1).slice (win0_4.rect t)).set ↔ _
  rw [View.set_slice_whole, Rect.mem_set_unit]
  exact Iff.rfl

/-- The blocks tile the output: row r is written back by point r / 800. -/
theorem cover (i : S100000x1x128.Idx) :
    ∃ t : Fin cfg0.N, (cfg0.win 4).flush t = true ∧ i ∈ ((cfg0.win 4).blk t).view.set := by
  have hi0 : (i 0).val < 100000 := (i 0).isLt
  have hi1 : (i 1).val < 1 := (i 1).isLt
  have hi2 : (i 2).val < 128 := (i 2).isLt
  have hN : (i 0).val / 800 < cfg0.N := by
    show (i 0).val / 800 < grid0.N
    rw [N_0]; omega
  obtain ⟨-, -, -, -, ⟨e0, e1, e2⟩⟩ := idx_facts ⟨(i 0).val / 800, hN⟩
  have e0' : win0_4.index ⟨(i 0).val / 800, hN⟩ (0 : Fin 3) = (i 0).val / 800 := e0
  refine ⟨⟨(i 0).val / 800, hN⟩, flush0_4 _, ?_⟩
  rw [mem_blk]
  intro a
  match a with
  | ⟨0, _⟩ =>
    show win0_4.index ⟨(i 0).val / 800, hN⟩ (0 : Fin 3) * 800 ≤ (i 0).val
      ∧ (i 0).val < win0_4.index ⟨(i 0).val / 800, hN⟩ (0 : Fin 3) * 800 + 800
    omega
  | ⟨1, _⟩ =>
    show win0_4.index ⟨(i 0).val / 800, hN⟩ (1 : Fin 3) * 1 ≤ (i 1).val
      ∧ (i 1).val < win0_4.index ⟨(i 0).val / 800, hN⟩ (1 : Fin 3) * 1 + 1
    omega
  | ⟨2, _⟩ =>
    show win0_4.index ⟨(i 0).val / 800, hN⟩ (2 : Fin 3) * 128 ≤ (i 2).val
      ∧ (i 2).val < win0_4.index ⟨(i 0).val / 800, hN⟩ (2 : Fin 3) * 128 + 128
    omega

/-- After the region the output array holds the nets' outputs. -/
theorem region_out (c : Dev nD) : (dats m 0 c).arrAt 4 cfg0.N = regionNets m c :=
  (dats m 0 c).arrAt_eq_of_cover 4 (regionNets m c) (fun t _ => flushed_eq m c t) cover

/-! ## The host lines around the region -/

/-- The region finds the recast of the input where the host put it. -/
theorem entry_x (c : Dev nD) :
    (V m c main_v0 : S100000x5x128.Idx → EReal)
      = shapeCast S100000x5x128 (m ((c : Thread nD τ).loc main_arg0)) shapeCasts_S500000x128_S100000x5x128 := by
  show StableHlo.after hostOps0 (fun b => m (c, b)) (Proc.devRef .tc main_v0) = _
  after_results
  rfl

/-- The host's last line recasts the region's output to [100000, 128]. -/
theorem tail_out (c : Dev nD) :
    (Pipeline.afterTail₀ cfgs (dats m) 0 (V0 m) [hostOps1] c main_v2 : S100000x128.Idx → EReal)
      = shapeCast S100000x128 (regionNets m c) shapeCasts_S100000x1x128_S100000x128 := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = regionNets m c :=
    (Pipeline.withArrays_arr spec0 launch0.win.arr_inj c _ _ 4).trans (region_out m c)
  rw [hw]
  rfl

/-! ## The run -/

/-- The nets' outputs of the arrays as the region finds them are those of the arguments as launched: the
    weights are untouched before the region and the inputs are the recast of the first argument. -/
theorem regionNets_eq (c : Dev nD) :
    regionNets m c
      = netArr (shapeCast S100000x5x128 (m ((c : Thread nD τ).loc main_arg0)) shapeCasts_S500000x128_S100000x5x128)
          (m ((c : Thread nD τ).loc main_arg1)) (m ((c : Thread nD τ).loc main_arg2)) (m ((c : Thread nD τ).loc main_arg3)) := by
  show netArr (V m c main_v0) (V m c main_arg1) (V m c main_arg2) (V m c main_arg3) = _
  rw [entry_x m c, V_main_arg1 m c, V_main_arg2 m c, V_main_arg3 m c]

/-- Every weakly fair execution of the kernel's @main terminates with the result buffer at the recast of the
    nets' outputs of the arguments, and the arguments unchanged. -/
theorem run : θ_run defs (onTc (τ := τ) (main (F := Ideal))) ⟨m, fun _ => 0, ρ⟩ fun r => ∀ c : Dev nD,
      r.2.mem ((c : Thread nD τ).loc main_v2)
        = shapeCast S100000x128
            (netArr (shapeCast S100000x5x128 (m ((c : Thread nD τ).loc main_arg0)) shapeCasts_S500000x128_S100000x5x128)
              (m ((c : Thread nD τ).loc main_arg1)) (m ((c : Thread nD τ).loc main_arg2)) (m ((c : Thread nD τ).loc main_arg3)))
            shapeCasts_S100000x1x128_S100000x128
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v2 (Pipeline.mem_restRefs_of main_v2 (by decide) (by decide))).trans
        ((tail_out m c).trans (by rw [regionNets_eq m c])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Nets

end
-- ==== Proof.RefDots.lean ====
/-
  The reference's three dot_general operations are batched over all 100000 nets with the same dimension
  numbers as the kernel's products. The coordinate facts of their records are the ones the generated
  read-at-an-index module proves for its own use; here they are bundled in the form the batched-product
  lemma takes.
-/
import proofs.«167691_j2241972928734_1_alg».proof.Proof.Gen.ReferenceIdeal.Read
import proofs.«167691_j2241972928734_1_alg».proof.Proof.LibBatchDot

noncomputable section

namespace Cert.ReferenceIdeal.Dots

open Cert.ReferenceIdeal Cert.ReferenceIdeal.Gen Cert.ReferenceIdeal.Read Idealize.ShloMosaic

/-- The first layer: [100000,2,5] weights against the [100000,5,128] inputs. -/
theorem layer0 : BatchDot.Facts (B := 100000) (M := 2) (K := 5) (N := 128) dot_S100000x2x5_S100000x5x128_S100000x2x128_2_1_1_2_0_0 :=
  ⟨rfl, rfl, lhs_main_v1_0, lhs_main_v1_1, lhs_main_v1_2, rhs_main_v1_0, rhs_main_v1_1, rhs_main_v1_2⟩

/-- The second layer: [100000,2,2] weights against the [100000,2,128] hidden values. -/
theorem layer1 : BatchDot.Facts (B := 100000) (M := 2) (K := 2) (N := 128) dot_S100000x2x2_S100000x2x128_S100000x2x128_2_1_1_2_0_0 :=
  ⟨rfl, rfl, lhs_main_v2_0, lhs_main_v2_1, lhs_main_v2_2, rhs_main_v2_0, rhs_main_v2_1, rhs_main_v2_2⟩

/-- The third layer: [100000,1,2] weights against the [100000,2,128] hidden values. -/
theorem layer2 : BatchDot.Facts (B := 100000) (M := 1) (K := 2) (N := 128) dot_S100000x1x2_S100000x2x128_S100000x1x128_2_1_1_2_0_0 :=
  ⟨rfl, rfl, lhs_main_v3_0, lhs_main_v3_1, lhs_main_v3_2, rhs_main_v3_0, rhs_main_v3_1, rhs_main_v3_2⟩

end Cert.ReferenceIdeal.Dots

end
-- ==== Proof.RefNet.lean ====
/-
  The reference, stage by stage, is the nets' formula: its three dot_general operations are batched over
  the net index, so the third stage at (n, o, c) is the sum over h of w2(n, o, h) times the second stage at
  (n, h, c), which is the sum over g of w1(n, h, g) times the first stage at (n, g, c), which is the sum
  over i of w0(n, g, i) times the recast input at (n, i, c). That is `netOut` of the recast input, term for
  term; nothing is rearranged.
-/
import proofs.«167691_j2241972928734_1_alg».proof.Proof.RefDots
import proofs.«167691_j2241972928734_1_alg».proof.Proof.NetSpec

noncomputable section

namespace Cert.ReferenceIdeal.RefNet

open Cert.ReferenceIdeal Cert.ReferenceIdeal.Gen Cert.ReferenceIdeal.Read
open Idealize.ShloMosaic Idealize.ShloMosaic.ValueIdx TinyNets

/-- The reference's third dot_general, as a [100000, 1, 128] array, is the nets' outputs computed from
    the input recast to [100000, 5, 128] and the three weight arrays. -/
theorem stages_eq_nets (a0 : (⟨S500000x128, .f32⟩ : BufTy).Contents (Elt Ideal)) (a1 : (⟨S100000x2x5, .f32⟩ : BufTy).Contents (Elt Ideal))
    (a2 : (⟨S100000x2x2, .f32⟩ : BufTy).Contents (Elt Ideal)) (a3 : (⟨S100000x1x2, .f32⟩ : BufTy).Contents (Elt Ideal)) :
    val_main_v3 (F := Ideal) a0 a1 a2 a3 = netArr (val_main_v0 (F := Ideal) a0) a1 a2 a3 := by
  funext j
  obtain ⟨n, o, c, rfl⟩ : ∃ (n : Fin 100000) (o : Fin 1) (c : Fin 128), j = ix3 n o c := ⟨j 0, j 1, j 2, eq_ix3 j⟩
  rw [netArr_ix3]
  unfold netOut val_main_v3
  rw [BatchDot.dotGeneral_ix3 Dots.layer2]
  refine Finset.sum_congr rfl fun h _ => congrArg _ ?_
  unfold val_main_v2
  rw [BatchDot.dotGeneral_ix3 Dots.layer1]
  refine Finset.sum_congr rfl fun g _ => congrArg _ ?_
  unfold val_main_v1
  rw [BatchDot.dotGeneral_ix3 Dots.layer0]

end Cert.ReferenceIdeal.RefNet

end
-- ==== Proof.lean ====
/-
  A hundred thousand small nets, in blocks of 800, against three batched einsums.

  The inputs are x : [500000, 128] (five rows per net, 128 columns) and the weights of three bias-free linear
  layers per net, w0 : [100000, 2, 5], w1 : [100000, 2, 2], w2 : [100000, 1, 2]. Both programs recast x to
  [100000, 5, 128] and compute, for net n and column c,

      out(n, c) = Σ_h w2(n, 0, h) · Σ_g w1(n, h, g) · Σ_i w0(n, g, i) · x(5n + i, c),

  recast from [100000, 1, 128] to [100000, 128]. The reference does it with three batched dot_general
  operations over all the nets; the kernel does it 800 nets at a time, with three batched matrix-unit products
  into zero accumulators, over a grid of 125 points whose blocks tile every array along the net axis.

  At the extended reals the two are one function with no algebra in between: a batched product at (n, p, c) is
  the sum over the contracted coordinate of left(n, p, k) · right(n, k, c) on both sides (the accumulator 0
  contributes 0 + s = s), the three sums are nested in the same order, and net n reads only rows n of the
  weights and of the recast input, so block t of the kernel's output is rows 800t … 800t + 799 of the
  whole-array function. No sum is reordered and no product distributed; the finiteness of the inputs is never
  used. The kernel's idealization rewrote nothing, so there is nothing to preserve beyond the text itself.

  The frames of the two kernel programs are the generated ones; the reference's frame is its generated run with
  the result dropped. The modules under Proof/ hold: the batched product read at an index (LibBatchDot), the
  dimension numbers of the six products (KernelDots, RefDots), the nets' formula (NetSpec), the reference as
  that formula (RefNet), the kernel body on a block as that formula (KernelNet), and the blocks assembled into
  the array with the host's two recasts around the region (KernelArray).
-/
import proofs.«167691_j2241972928734_1_alg».proof.Defs
import proofs.«167691_j2241972928734_1_alg».proof.Proof.Gen.Kernel
import proofs.«167691_j2241972928734_1_alg».proof.Proof.Gen.Kernel.Skeleton
import proofs.«167691_j2241972928734_1_alg».proof.Proof.Gen.Kernel.Launch
import proofs.«167691_j2241972928734_1_alg».proof.Proof.Gen.Kernel.Points
import proofs.«167691_j2241972928734_1_alg».proof.Proof.Gen.Kernel.Frame
import proofs.«167691_j2241972928734_1_alg».proof.Proof.Gen.KernelIdeal
import proofs.«167691_j2241972928734_1_alg».proof.Proof.Gen.KernelIdeal.Skeleton
import proofs.«167691_j2241972928734_1_alg».proof.Proof.Gen.KernelIdeal.Launch
import proofs.«167691_j2241972928734_1_alg».proof.Proof.Gen.KernelIdeal.Points
import proofs.«167691_j2241972928734_1_alg».proof.Proof.Gen.KernelIdeal.Frame
import proofs.«167691_j2241972928734_1_alg».proof.Proof.Gen.ReferenceIdeal
import proofs.«167691_j2241972928734_1_alg».proof.Proof.Gen.Pre_finite_inputs
import proofs.«167691_j2241972928734_1_alg».proof.Proof.Gen.ReferenceIdeal.Run
import proofs.«167691_j2241972928734_1_alg».proof.Proof.Gen.ReferenceIdeal.Read
import proofs.«167691_j2241972928734_1_alg».proof.Proof.KernelArray
import proofs.«167691_j2241972928734_1_alg».proof.Proof.RefNet
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the recast of the nets' outputs. -/
theorem algebraic : Cert.algebraic_KernelIdeal_ReferenceIdeal := by
  intro m ρ m' ρ' _ hagree
  refine ⟨_, Cert.KernelIdeal.Nets.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  rw [Cert.ReferenceIdeal.Read.val_main_v4_eq]
  unfold Cert.ReferenceIdeal.Read.val_main_v4
  rw [Cert.ReferenceIdeal.RefNet.stages_eq_nets]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
